-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S_ : Shape := ⟨0, ![]⟩

class Facts : Prop where
  bcast_S_S16x196x768 : S_.BroadcastsInDim S16x196x768 (![] : Fin 0 → Fin S16x196x768.rank)
  reducesTo_S16x196x768_S_d0_1_2 : S16x196x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x196x768 .f32) (main_arg1 : FVec F S16x196x768 .f32) (main_arg2 : FVec F S768x512 .f32) (main_arg3 : FVec F S768x512 .f32) (main_arg4 : FVec F S512x128 .f32) (main_arg5 : FVec F S128 .f32) : IVec S_ 1 :=
  let main_v0 : FVec F S16x196x768 .f32 := Host.absf main_arg0
  let main_cst : FVec F S_ .f32 := constant S_ .f32 0x7F800000#32
  let main_v1 : FVec F S16x196x768 .f32 := broadcastInDim S16x196x768 ![] bcast_S_S16x196x768 main_cst
  let main_v2 : IVec S16x196x768 1 := cmpf .olt main_v0 main_v1
  let main_c : IVec S_ 1 := constantI S_ 1 1#1
  let main_v3 : IVec S_ 1 := (fun x v => Host.reduce IntOp.andi x v reducesTo_S16x196x768_S_d0_1_2 h_S_) main_v2 main_c
  let main_v4 : FVec F S16x196x768 .f32 := Host.absf main_arg1
  let main_cst_0 : FVec F S_ .f32 := constant S_ .f32 0x7F800000#32
  let main_v5 : FVec F S16x196x768 .f32 := broadcastInDim S16x196x768 ![] bcast_S_S16x196x768 main_cst_0
  let main_v6 : IVec S16x196x768 1 := cmpf .olt main_v4 main_v5
  let main_c_1 : IVec S_ 1 := constantI S_ 1 1#1
  let main_v7 : IVec S_ 1 := (fun x v => Host.reduce IntOp.andi x v reducesTo_S16x196x768_S_d0_1_2 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_arg5 main_v13 main_v16
-- ==== Kernel.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S3136x768 : Shape := ⟨2, ![3136, 768]⟩
abbrev S16x128 : Shape := ⟨2, ![16, 128]⟩
abbrev S1568x128 : Shape := ⟨2, ![1568, 128]⟩
abbrev S128x512 : Shape := ⟨2, ![128, 512]⟩
abbrev S8x128 : Shape := ⟨2, ![8, 128]⟩
abbrev S1568x512 : Shape := ⟨2, ![1568, 512]⟩
abbrev S8x196x512 : Shape := ⟨3, ![8, 196, 512]⟩
abbrev S8x512 : Shape := ⟨2, ![8, 512]⟩
abbrev S1x128 : Shape := ⟨2, ![1, 128]⟩

abbrev nBuf : Space → Nat
  | .hbm => 9
  | .vmem => 14
  | .smem => 0
  | _ => 0

abbrev bufTy : (tb : Table) → Fin (tcTables nBuf tb) → BufTy
  | .hbm, ⟨0, _⟩ => ⟨S16x196x768, .f32⟩
  | .hbm, ⟨1, _⟩ => ⟨S16x196x768, .f32⟩
  | .hbm, ⟨2, _⟩ => ⟨S768x512, .f32⟩
  | .hbm, ⟨3, _⟩ => ⟨S768x512, .f32⟩
  | .hbm, ⟨4, _⟩ => ⟨S512x128, .f32⟩
  | .hbm, ⟨5, _⟩ => ⟨S128, .f32⟩
  | .hbm, ⟨6, _⟩ => ⟨S3136x768, .f32⟩
  | .hbm, ⟨7, _⟩ => ⟨S3136x768, .f32⟩
  | .hbm, ⟨8, _⟩ => ⟨S16x128, .f32⟩
  | .local _ .vmem, ⟨0, _⟩ => ⟨S1568x128, .f32⟩
  | .local _ .vmem, ⟨1, _⟩ => ⟨S1568x128, .f32⟩
  | .local _ .vmem, ⟨2, _⟩ => ⟨S1568x128, .f32⟩
  | .local _ .vmem, ⟨3, _⟩ => ⟨S1568x128, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S512x128, .f32⟩
  | .local _ .vmem, ⟨9, _⟩ => ⟨S128, .f32⟩
  | .local _ .vmem, ⟨10, _⟩ => ⟨S8x128, .f32⟩
  | .local _ .vmem, ⟨11, _⟩ => ⟨S8x128, .f32⟩
  | .local _ .vmem, ⟨12, _⟩ => ⟨S1568x512, .f32⟩
  | .local _ .vmem, ⟨13, _⟩ => ⟨S1568x512, .f32⟩
  | _, _ => ⟨S16x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 6], ![false, false]⟩

def k0_cond2 (i : grid0.Coords) : BitVec 1 :=
  let arg1 : BitVec 32 := BitVec.ofNat 32 (i 1).val
  let c5_i32 : BitVec 32 := 5#32
  let v25 : BitVec 1 := Scalar.cmpi .eq arg1 c5_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1568x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1568x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S16x196x768_S3136x768 : S16x196x768.ShapeCasts S3136x768
  inb_S1568x512_S1568x512_0_0 : ∀ a, (![0, 0] : Fin 2 → Nat) a + S1568x512.size a ≤ S1568x512.size a
  h_S1568x512 : 0 < S1568x512.numel
  shapeCasts_S1568x512_S1568x512 : S1568x512.ShapeCasts S1568x512
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S1568x512_S8x196x512 : S1568x512.ShapeCasts S8x196x512
  reduces_S8x196x512_S8x512 : S8x196x512.Reduces [1] S8x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  dot_S1568x128_S128x512_S1568x512_1_0_0_1_n_n_wf : DotDims.WF S1568x128 S128x512 S1568x512 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x128.size a ≤ S3136x768.size a
  hwx0_0 : ∀ i : grid0.Coords, EltTy.bits .f32 = 32 ∨ (Rect.block (s := S3136x768) S1568x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1568x128.size a ≤ S3136x768.size a
  hwx0_1 : ∀ i : grid0.Coords, EltTy.bits .f32 = 32 ∨ (Rect.block (s := S3136x768) S1568x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S768x512.size a
  hwx0_2 : ∀ i : grid0.Coords, EltTy.bits .f32 = 32 ∨ (Rect.block (s := S768x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S768x512.size a
  hwx0_3 : ∀ i : grid0.Coords, EltTy.bits .f32 = 32 ∨ (Rect.block (s := S768x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def dot_S1568x128_S128x512_S1568x512_1_0_0_1_n_n : DotDims S1568x128 S128x512 S1568x512 where
  lhsContracting := [1]
  rhsContracting := [0]
  lhsNonContracting := [0]
  rhsNonContracting := [1]
  lhsBatch := []
  rhsBatch := []
  wf := dot_S1568x128_S128x512_S1568x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_v0) S1568x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1568x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S16x196x512 : Shape := ⟨3, ![16, 196, 512]⟩
abbrev S_ : Shape := ⟨0, ![]⟩
abbrev S16x512 : Shape := ⟨2, ![16, 512]⟩
abbrev S16x128 : Shape := ⟨2, ![16, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16x196x768, .f32⟩
  | .hbm, ⟨1, _⟩ => ⟨S16x196x768, .f32⟩
  | .hbm, ⟨2, _⟩ => ⟨S768x512, .f32⟩
  | .hbm, ⟨3, _⟩ => ⟨S768x512, .f32⟩
  | .hbm, ⟨4, _⟩ => ⟨S512x128, .f32⟩
  | .hbm, ⟨5, _⟩ => ⟨S128, .f32⟩
  | .hbm, ⟨6, _⟩ => ⟨S16x196x512, .f32⟩
  | .hbm, ⟨7, _⟩ => ⟨S_, .f32⟩
  | .hbm, ⟨8, _⟩ => ⟨S16x196x512, .f32⟩
  | .hbm, ⟨9, _⟩ => ⟨S16x196x512, .f32⟩
  | .hbm, ⟨10, _⟩ => ⟨S16x196x512, .f32⟩
  | .hbm, ⟨11, _⟩ => ⟨S_, .f32⟩
  | .hbm, ⟨12, _⟩ => ⟨S16x196x512, .f32⟩
  | .hbm, ⟨13, _⟩ => ⟨S16x196x512, .f32⟩
  | .hbm, ⟨14, _⟩ => ⟨S_, .f32⟩
  | .hbm, ⟨15, _⟩ => ⟨S16x512, .f32⟩
  | .hbm, ⟨16, _⟩ => ⟨S_, .f32⟩
  | .hbm, ⟨17, _⟩ => ⟨S16x512, .f32⟩
  | .hbm, ⟨18, _⟩ => ⟨S16x512, .f32⟩
  | .hbm, ⟨19, _⟩ => ⟨S16x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S16x128, .f32⟩
  | .hbm, ⟨25, _⟩ => ⟨S16x128, .f32⟩
  | _, _ => ⟨S16x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S16x196x512 : S_.BroadcastsInDim S16x196x512 (![] : Fin 0 → Fin S16x196x512.rank)
  reducesTo_S16x196x512_S16x512_d1 : S16x196x512.ReducesTo [1] S16x512
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  dot_S16x196x768_S768x512_S16x196x512_2_0_01_1_n_n_wf : DotDims.WF S16x196x768 S768x512 S16x196x512 [2] [0] [0, 1] [1] [] []
  dot_S16x512_S512x128_S16x128_1_0_0_1_n_n_wf : DotDims.WF S16x512 S512x128 S16x128 [1] [0] [0] [1] [] []

variable [Facts₀]

def dot_S16x196x768_S768x512_S16x196x512_2_0_01_1_n_n : DotDims S16x196x768 S768x512 S16x196x512 where
  lhsContracting := [2]
  rhsContracting := [0]
  lhsNonContracting := [0, 1]
  rhsNonContracting := [1]
  lhsBatch := []
  rhsBatch := []
  wf := dot_S16x196x768_S768x512_S16x196x512_2_0_01_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf

class Facts : Prop extends Facts₀ where

variable [Facts]
-- ==== Proof.CasePieces.lean ====
/-
  What one grid step leaves behind, as pure functions of what it read.

  The grid is (batch tile i, contraction tile k) with k innermost, six contraction tiles per batch tile. Two
  accumulators live across the six steps of a batch tile, one per projection: acc₁ for x1·W1 and acc₂ for x2·W2,
  each a [1568, 512] block (1568 = 8 batches × 196 tokens). A step does one of three things:

    * first tile (k = 0):      acc ← 0, then acc ← acc + x_k · w_k;
    * middle tiles (0 < k < 5): acc ← acc + x_k · w_k;
    * last tile (k = 5):       acc ← acc + x_k · w_k, and then the output block is computed from BOTH accumulators
                               as they stand AFTER this last addition.

  Every load and store of the body covers its buffer whole, so each store's value is a closed expression of the
  step's input blocks and of what the accumulators held on entry. The seven lemmas below say which expression, for
  each accumulator in each of the three cases and for the output block in the last case; they hold for any float
  semantics.
-/
import proofs.«177469_j90563680403989_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pooled

open Cert.KernelIdeal Cert.KernelIdeal.Gen

variable {F : FTy → Type} [FloatOps F]

/-- The offsets of a whole-buffer access of a matrix are zero on both axes. -/
theorem zero_offsets2 : (![0, 0] : Fin 2 → Nat) = fun _ => 0 := funext fun a => by fin_cases a <;> rfl

/-- The offset of a whole-buffer access of a vector is zero. -/
theorem zero_offsets1 : (![0] : Fin 1 → Nat) = fun _ => 0 := funext fun a => by fin_cases a; rfl

/-- First tile, first accumulator: zeroed, then the tile's product x1ₖ·W1ₖ added to the zero block. -/
theorem first_tile_acc1 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : cond0_0 i) (hc1 : ¬cond0_1 i) (x0 : Vec F S1568x128 .f32) (x1 : Vec F S1568x128 .f32) (x2 : Vec F S128x512 .f32) (x3 : Vec F S128x512 .f32) (x4 : Vec F S512x128 .f32) (x5 : Vec F S128 .f32) :
    sout0_A_0 c i arg2 harg2 arg3 harg3 arg4 harg4 arg5 harg5 arg6 harg6 arg7 harg7 arg8 harg8 arg9 harg9 arg10 harg10 hc0 hc1 x0 x1 x2 x3 x4 x5 = k0_pay3 x0 x2 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1568x512) zero_offsets2, View.readCov_unit_zero (S := S1568x512) _ zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- First tile, second accumulator: zeroed, then the tile's product x2ₖ·W2ₖ added to the zero block. -/
theorem first_tile_acc2 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : cond0_0 i) (hc1 : ¬cond0_1 i) (x0 : Vec F S1568x128 .f32) (x1 : Vec F S1568x128 .f32) (x2 : Vec F S128x512 .f32) (x3 : Vec F S128x512 .f32) (x4 : Vec F S512x128 .f32) (x5 : Vec F S128 .f32) :
    sout0_A_1 c i arg2 harg2 arg3 harg3 arg4 harg4 arg5 harg5 arg6 harg6 arg7 harg7 arg8 harg8 arg9 harg9 arg10 harg10 hc0 hc1 x0 x1 x2 x3 x4 x5 = k0_pay4 x1 x3 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1568x512) zero_offsets2, View.readCov_unit_zero (S := S1568x512) _ zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- Middle tile, first accumulator: what it held on entry plus the tile's product x1ₖ·W1ₖ. -/
theorem middle_tile_acc1 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : ¬cond0_0 i) (hc1 : ¬cond0_1 i) (x0 : Vec F S1568x128 .f32) (x1 : Vec F S1568x128 .f32) (x2 : Vec F S128x512 .f32) (x3 : Vec F S128x512 .f32) (x4 : Vec F S512x128 .f32) (x5 : Vec F S128 .f32) (xs0 xs1 : Vec F S1568x512 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1568x512) zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- Middle tile, second accumulator: what it held on entry plus the tile's product x2ₖ·W2ₖ. -/
theorem middle_tile_acc2 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : ¬cond0_0 i) (hc1 : ¬cond0_1 i) (x0 : Vec F S1568x128 .f32) (x1 : Vec F S1568x128 .f32) (x2 : Vec F S128x512 .f32) (x3 : Vec F S128x512 .f32) (x4 : Vec F S512x128 .f32) (x5 : Vec F S128 .f32) (xs0 xs1 : Vec F S1568x512 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1568x512) zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- Last tile, first accumulator: what it held on entry plus the tile's product x1ₖ·W1ₖ. -/
theorem last_tile_acc1 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : ¬cond0_0 i) (hc1 : cond0_1 i) (x0 : Vec F S1568x128 .f32) (x1 : Vec F S1568x128 .f32) (x2 : Vec F S128x512 .f32) (x3 : Vec F S128x512 .f32) (x4 : Vec F S512x128 .f32) (x5 : Vec F S128 .f32) (xs0 xs1 : Vec F S1568x512 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S1568x512) zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- Last tile, second accumulator: what it held on entry plus the tile's product x2ₖ·W2ₖ. -/
theorem last_tile_acc2 (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : ¬cond0_0 i) (hc1 : cond0_1 i) (x0 : Vec F S1568x128 .f32) (x1 : Vec F S1568x128 .f32) (x2 : Vec F S128x512 .f32) (x3 : Vec F S128x512 .f32) (x4 : Vec F S512x128 .f32) (x5 : Vec F S128 .f32) (xs0 xs1 : Vec F S1568x512 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S1568x512) zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

/-- Last tile, the output block: the pooled product and projection of the two accumulators AFTER this tile's
    additions (each re-read from its buffer once the sum has been stored), plus the scaled bias. -/
theorem last_tile_out (c : Dev nD) (i : grid0.Coords) (arg2 : Memref sig .tc .vmem S1568x128 .f32) (harg2 : arg2.IsWhole) (arg3 : Memref sig .tc .vmem S1568x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S8x128 .f32) (harg8 : arg8.IsWhole) (arg9 : Memref sig .tc .vmem S1568x512 .f32) (harg9 : arg9.IsWhole) (arg10 : Memref sig .tc .vmem S1568x512 .f32) (harg10 : arg10.IsWhole) (hc0 : ¬cond0_0 i) (hc1 : cond0_1 i) (x0 : Vec F S1568x128 .f32) (x1 : Vec F S1568x128 .f32) (x2 : Vec F S128x512 .f32) (x3 : Vec F S128x512 .f32) (x4 : Vec F S512x128 .f32) (x5 : Vec F S128 .f32) (xs0 xs1 : Vec F S1568x512 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay5 (k0_pay3 x0 x2 xs0) (k0_pay4 x1 x3 xs1) x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S8x128) zero_offsets2, View.readCov_unit_zero (S := S1568x512) _ zero_offsets2, View.readCov_unit_zero (S := S1568x512) _ zero_offsets2]
  simp only [View.readAt_eq_ld, harg2.read_unread, harg3.read_unread, harg4.read_unread, harg5.read_unread, harg6.read_unread, harg7.read_unread, harg9.read_unread, harg10.read_unread, View.ld_unit_zero (S := S1568x128) zero_offsets2, View.ld_unit_zero (S := S128x512) zero_offsets2, View.ld_unit_zero (S := S1568x512) zero_offsets2, View.ld_unit_zero (S := S512x128) zero_offsets2, View.ld_unit_zero (S := S128) zero_offsets1]

end Cert.KernelIdeal.Pooled

end
-- ==== Proof.PooledSpec.lean ====
/-
  The function both programs compute, and the one law that joins them.

  For a batch b and an output feature o the result is

      out[b, o] = Σ_h ( P₁[b, h] · P₂[b, h] ) · Wp[h, o]  +  bp[o] · 38416

  where P₁[b, h] = Σ_n relu( Σ_c x1[b, n, c] · W1[c, h] ) pools the rectified first projection over the 196 tokens
  of batch b, P₂ does the same with x2 and W2, and 38416 = 196 · 196 is the number of token pairs a bias term is
  counted for. All sums and products are those of the extended reals.

  The reference contracts over all 768 input features at once. The kernel walks the 768 features in six tiles of
  128 and adds one tile's partial product per grid step. Addition of extended reals is commutative and associative
  (with the convention ⊤ + ⊥ = ⊥ it is still a commutative monoid), so the sum over 768 coordinates IS the sum over
  the six tiles of the sums inside each tile — no finiteness of the inputs is needed for this regrouping.
-/
import Idealize.ShloMosaic.PureOps.Ideal
import Idealize.ShloMosaic.Lib.ValueIdx

noncomputable section

namespace Cert.Pooled

open Idealize.ShloMosaic Idealize.ShloMosaic.ValueIdx

/-- The rectified projection of one batch, pooled over its 196 tokens: Σ_n relu(Σ_c x[b, n, c] · W[c, h]). -/
def pooledRelu (x : (⟨3, ![16, 196, 768]⟩ : Shape).Idx → EReal) (W : (⟨2, ![768, 512]⟩ : Shape).Idx → EReal)
    (b : Fin 16) (h : Fin 512) : EReal :=
  ∑ n : Fin 196, max (∑ c : Fin 768, x (ix3 b n c) * W (ix2 c h)) 0

/-- The result at batch b and output feature o: the product of the two pooled projections, projected by Wp, plus
    the bias counted once per token pair. The scale is kept as the float word of 38416.0, the same word in both
    programs, so its value is never needed. -/
def resultAt (x1 x2 : (⟨3, ![16, 196, 768]⟩ : Shape).Idx → EReal) (W1 W2 : (⟨2, ![768, 512]⟩ : Shape).Idx → EReal)
    (Wp : (⟨2, ![512, 128]⟩ : Shape).Idx → EReal) (bp : (⟨1, ![128]⟩ : Shape).Idx → EReal) (b : Fin 16) (o : Fin 128) : EReal :=
  (∑ h : Fin 512, (pooledRelu x1 W1 b h * pooledRelu x2 W2 b h) * Wp (ix2 h o)) + bp (ix1 o) * Ideal.ofBits .f32 0x47161000#32

/-- The whole [16, 128] result array. -/
def result (x1 x2 : (⟨3, ![16, 196, 768]⟩ : Shape).Idx → EReal) (W1 W2 : (⟨2, ![768, 512]⟩ : Shape).Idx → EReal)
    (Wp : (⟨2, ![512, 128]⟩ : Shape).Idx → EReal) (bp : (⟨1, ![128]⟩ : Shape).Idx → EReal) :
    (⟨2, ![16, 128]⟩ : Shape).Idx → EReal :=
  fun i => resultAt x1 x2 W1 W2 Wp bp (i 0) (i 1)

/-- Row 196·b + n of a [1568, 512] accumulator block (1568 = 8 · 196) is token n of the block's local batch b. -/
abbrev tokenRow (b : Fin 8) (n : Fin 196) : Fin 1568 := ⟨196 * b.val + n.val, by have := b.isLt; have := n.isLt; omega⟩

/-- THE TILING LAW. A sum over 768 = 6 · 128 coordinates is the sum, over the six tiles, of the sums over the 128
    coordinates of each tile; coordinate j of tile s is 128·s + j. It holds in any commutative monoid. -/
theorem sum_by_tiles {β : Type*} [AddCommMonoid β] (g : Fin 768 → β) :
    ∑ c : Fin 768, g c
      = ∑ s : Fin 6, ∑ j : Fin 128, g ⟨128 * s.val + j.val, by have := s.isLt; have := j.isLt; omega⟩ := by
  rw [← Equiv.sum_comp (finProdFinEquiv : Fin 6 × Fin 128 ≃ Fin 768) g, Fintype.sum_prod_type]
  refine Finset.sum_congr rfl fun s _ => Finset.sum_congr rfl fun j _ => congrArg g (Fin.ext ?_)
  show j.val + 128 * s.val = 128 * s.val + j.val
  omega

end Cert.Pooled

end
-- ==== Proof.PayloadReads.lean ====
/-
  The arithmetic of one grid step, read entry by entry over the extended reals.

  Over the extended reals a change of float format is the identity, a matrix product into a zero accumulator is the
  plain sum of products over the contracted axis, and a sum along an axis is the plain sum. So:

    * a tile step turns an accumulator entry acc[r, h] into acc[r, h] + Σ_{j < 128} x[r, j] · w[j, h];
    * the zero block is 0 everywhere;
    * the final step reads row r = 196·b + n of an accumulator as token n of local batch b, rectifies, sums over the
      196 tokens, multiplies the two pooled values, contracts with Wp over the 512 hidden features and adds
      bp[o] · 38416.
-/
import proofs.«177469_j90563680403989_2_alg».proof.Proof.Gen.KernelIdeal.Skeleton
import proofs.«177469_j90563680403989_2_alg».proof.Proof.PooledSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pooled

open Cert.KernelIdeal Cert.KernelIdeal.Gen Idealize.ShloMosaic Idealize.ShloMosaic.ValueIdx
open Cert.Pooled (tokenRow)

/-! ## The two matrix products, as sums over the contracted axis -/

/-- In the tile product the left operand is read at (row of the result, contracted coordinate) … -/
theorem tile_lhs_0 (i : S1568x512.Idx) (q : dot_S1568x128_S128x512_S1568x512_1_0_0_1_n_n.contr.Idx) : (dot_S1568x128_S128x512_S1568x512_1_0_0_1_n_n.lhsIdx i q 0).val = (i 0).val := by
  unfold DotDims.lhsIdx
  rw [dif_neg (show ¬(0 : Fin S1568x128.rank) ∈ dot_S1568x128_S128x512_S1568x512_1_0_0_1_n_n.lhsBatch by decide), dif_pos (show (0 : Fin S1568x128.rank) ∈ dot_S1568x128_S128x512_S1568x512_1_0_0_1_n_n.lhsNonContracting by decide)]
  rfl
theorem tile_lhs_1 (i : S1568x512.Idx) (q : dot_S1568x128_S128x512_S1568x512_1_0_0_1_n_n.contr.Idx) : (dot_S1568x128_S128x512_S1568x512_1_0_0_1_n_n.lhsIdx i q 1).val = (q ⟨0, by decide⟩).val :=
  dot_S1568x128_S128x512_S1568x512_1_0_0_1_n_n.lhsIdx_val_of_single rfl i q
/-- … and the right operand at (contracted coordinate, column of the result). -/
theorem tile_rhs_0 (i : S1568x512.Idx) (q : dot_S1568x128_S128x512_S1568x512_1_0_0_1_n_n.contr.Idx) : (dot_S1568x128_S128x512_S1568x512_1_0_0_1_n_n.rhsIdx i q 0).val = (q ⟨0, by decide⟩).val :=
  dot_S1568x128_S128x512_S1568x512_1_0_0_1_n_n.rhsIdx_val_of_single rfl i q
theorem tile_rhs_1 (i : S1568x512.Idx) (q : dot_S1568x128_S128x512_S1568x512_1_0_0_1_n_n.contr.Idx) : (dot_S1568x128_S128x512_S1568x512_1_0_0_1_n_n.rhsIdx i q 1).val = (i 1).val := by
  unfold DotDims.rhsIdx
  rw [dif_neg (show ¬(1 : Fin S128x512.rank) ∈ dot_S1568x128_S128x512_S1568x512_1_0_0_1_n_n.rhsBatch by decide), dif_pos (show (1 : Fin S128x512.rank) ∈ dot_S1568x128_S128x512_S1568x512_1_0_0_1_n_n.rhsNonContracting by decide)]
  rfl

/-- One tile's product into a zero accumulator: entry (r, h) is Σ_{j < 128} x[r, j] · w[j, h]. -/
theorem tile_product_apply (x : FVec Ideal S1568x128 .bf16) (w : FVec Ideal S128x512 .bf16) (r : Fin 1568) (h : Fin 512) :
    matmul dot_S1568x128_S128x512_S1568x512_1_0_0_1_n_n none x w (constant (F := Ideal) S1568x512 .f32 0x00000000#32) (ix2 r h)
      = ∑ j : Fin 128, x (ix2 r j) * w (ix2 j h) := by
  refine (Ideal.matmul_constant_zero_apply dot_S1568x128_S128x512_S1568x512_1_0_0_1_n_n none x w (ix2 r h)).trans ?_
  rw [← Equiv.sum_comp (contrEquiv1 dot_S1568x128_S128x512_S1568x512_1_0_0_1_n_n 128 rfl rfl).symm]
  refine Finset.sum_congr rfl fun k _ => ?_
  have hk := contrEquiv1_symm_val dot_S1568x128_S128x512_S1568x512_1_0_0_1_n_n 128 rfl rfl k
  have el : dot_S1568x128_S128x512_S1568x512_1_0_0_1_n_n.lhsIdx (ix2 r h) ((contrEquiv1 dot_S1568x128_S128x512_S1568x512_1_0_0_1_n_n 128 rfl rfl).symm k) = ix2 r k := funext fun a => Fin.ext (by
    match a with
    | ⟨0, _⟩ => exact tile_lhs_0 _ _
    | ⟨1, _⟩ => exact (tile_lhs_1 _ _).trans hk)
  have er : dot_S1568x128_S128x512_S1568x512_1_0_0_1_n_n.rhsIdx (ix2 r h) ((contrEquiv1 dot_S1568x128_S128x512_S1568x512_1_0_0_1_n_n 128 rfl rfl).symm k) = ix2 k h := funext fun a => Fin.ext (by
    match a with
    | ⟨0, _⟩ => exact (tile_rhs_0 _ _).trans hk
    | ⟨1, _⟩ => exact tile_rhs_1 _ _)
  rw [el, er]

/-- In the final projection the left operand is read at (local batch, hidden feature) … -/
theorem proj_lhs_0 (i : S8x128.Idx) (q : dot_S8x512_S512x128_S8x128_1_0_0_1_n_n.contr.Idx) : (dot_S8x512_S512x128_S8x128_1_0_0_1_n_n.lhsIdx i q 0).val = (i 0).val := by
  unfold DotDims.lhsIdx
  rw [dif_neg (show ¬(0 : Fin S8x512.rank) ∈ dot_S8x512_S512x128_S8x128_1_0_0_1_n_n.lhsBatch by decide), dif_pos (show (0 : Fin S8x512.rank) ∈ dot_S8x512_S512x128_S8x128_1_0_0_1_n_n.lhsNonContracting by decide)]
  rfl
theorem proj_lhs_1 (i : S8x128.Idx) (q : dot_S8x512_S512x128_S8x128_1_0_0_1_n_n.contr.Idx) : (dot_S8x512_S512x128_S8x128_1_0_0_1_n_n.lhsIdx i q 1).val = (q ⟨0, by decide⟩).val :=
  dot_S8x512_S512x128_S8x128_1_0_0_1_n_n.lhsIdx_val_of_single rfl i q
/-- … and Wp at (hidden feature, output feature). -/
theorem proj_rhs_0 (i : S8x128.Idx) (q : dot_S8x512_S512x128_S8x128_1_0_0_1_n_n.contr.Idx) : (dot_S8x512_S512x128_S8x128_1_0_0_1_n_n.rhsIdx i q 0).val = (q ⟨0, by decide⟩).val :=
  dot_S8x512_S512x128_S8x128_1_0_0_1_n_n.rhsIdx_val_of_single rfl i q
theorem proj_rhs_1 (i : S8x128.Idx) (q : dot_S8x512_S512x128_S8x128_1_0_0_1_n_n.contr.Idx) : (dot_S8x512_S512x128_S8x128_1_0_0_1_n_n.rhsIdx i q 1).val = (i 1).val := by
  unfold DotDims.rhsIdx
  rw [dif_neg (show ¬(1 : Fin S512x128.rank) ∈ dot_S8x512_S512x128_S8x128_1_0_0_1_n_n.rhsBatch by decide), dif_pos (show (1 : Fin S512x128.rank) ∈ dot_S8x512_S512x128_S8x128_1_0_0_1_n_n.rhsNonContracting by decide)]
  rfl

/-- The final projection into a zero accumulator: entry (b, o) is Σ_{k < 512} s[b, k] · Wp[k, o]. -/
theorem proj_product_apply (s : FVec Ideal S8x512 .f32) (wp : FVec Ideal S512x128 .f32) (b : Fin 8) (o : Fin 128) :
    matmul dot_S8x512_S512x128_S8x128_1_0_0_1_n_n (some .fp32) s wp (constant (F := Ideal) S8x128 .f32 0x00000000#32) (ix2 b o)
      = ∑ k : Fin 512, s (ix2 b k) * wp (ix2 k o) := by
  refine (Ideal.matmul_constant_zero_apply dot_S8x512_S512x128_S8x128_1_0_0_1_n_n (some .fp32) s wp (ix2 b o)).trans ?_
  rw [← Equiv.sum_comp (contrEquiv1 dot_S8x512_S512x128_S8x128_1_0_0_1_n_n 512 rfl rfl).symm]
  refine Finset.sum_congr rfl fun k _ => ?_
  have hk := contrEquiv1_symm_val dot_S8x512_S512x128_S8x128_1_0_0_1_n_n 512 rfl rfl k
  have el : dot_S8x512_S512x128_S8x128_1_0_0_1_n_n.lhsIdx (ix2 b o) ((contrEquiv1 dot_S8x512_S512x128_S8x128_1_0_0_1_n_n 512 rfl rfl).symm k) = ix2 b k := funext fun a => Fin.ext (by
    match a with
    | ⟨0, _⟩ => exact proj_lhs_0 _ _
    | ⟨1, _⟩ => exact (proj_lhs_1 _ _).trans hk)
  have er : dot_S8x512_S512x128_S8x128_1_0_0_1_n_n.rhsIdx (ix2 b o) ((contrEquiv1 dot_S8x512_S512x128_S8x128_1_0_0_1_n_n 512 rfl rfl).symm k) = ix2 k o := funext fun a => Fin.ext (by
    match a with
    | ⟨0, _⟩ => exact (proj_rhs_0 _ _).trans hk
    | ⟨1, _⟩ => exact proj_rhs_1 _ _)
  rw [el, er]

/-! ## A tile step on an accumulator -/

/-- The first accumulator after a tile step: acc[r, h] + Σ_j x1ₖ[r, j] · W1ₖ[j, h] (the rounding of the operands to
    bf16 is the identity on extended reals). -/
theorem acc1_step_apply (x : Vec Ideal S1568x128 .f32) (w : Vec Ideal S128x512 .f32) (acc : Vec Ideal S1568x512 .f32)
    (r : Fin 1568) (h : Fin 512) :
    k0_pay3 (F := Ideal) x w acc (ix2 r h) = acc (ix2 r h) + ∑ j : Fin 128, x (ix2 r j) * w (ix2 j h) := by
  unfold k0_pay3
  simp only [shapeCast_self]
  exact congrArg (acc (ix2 r h) + ·) (tile_product_apply _ _ r h)

/-- The second accumulator after a tile step: the same with x2ₖ and W2ₖ. -/
theorem acc2_step_apply (x : Vec Ideal S1568x128 .f32) (w : Vec Ideal S128x512 .f32) (acc : Vec Ideal S1568x512 .f32)
    (r : Fin 1568) (h : Fin 512) :
    k0_pay4 (F := Ideal) x w acc (ix2 r h) = acc (ix2 r h) + ∑ j : Fin 128, x (ix2 r j) * w (ix2 j h) := by
  unfold k0_pay4
  simp only [shapeCast_self]
  exact congrArg (acc (ix2 r h) + ·) (tile_product_apply _ _ r h)

/-- The block the first tile resets the first accumulator to is zero everywhere. -/
theorem zero1_apply (y : S1568x512.Idx) : k0_pay1 (F := Ideal) y = 0 := by
  unfold k0_pay1
  simp only [shapeCast_self]
  exact Ideal.ofBits_zero_f32

/-- So is the block the second accumulator is reset to. -/
theorem zero2_apply (y : S1568x512.Idx) : k0_pay2 (F := Ideal) y = 0 := by
  unfold k0_pay2
  simp only [shapeCast_self]
  exact Ideal.ofBits_zero_f32

/-! ## The final step -/

/-- The rectified accumulator regrouped as [8, 196, 512] and summed over the tokens: entry (b, k) is
    Σ_{n < 196} max(acc[196·b + n, k], 0). -/
theorem pooled_apply (acc : Vec Ideal S1568x512 .f32) (b : Fin 8) (k : Fin 512) :
    multiReduction .add [1] S8x512
        (shapeCast S8x196x512 (maximumf acc (broadcast S1568x512 (Scalar.ofBits (F := Ideal) .f32 0x00000000#32))) shapeCasts_S1568x512_S8x196x512)
        0x00000000#32 reduces_S8x196x512_S8x512 (.inl rfl) rfl (ix2 b k)
      = ∑ n : Fin 196, max (acc (ix2 (tokenRow b n) k)) 0 := by
  refine (Ideal.multiReduction_add_single _ 0x00000000#32 reduces_S8x196x512_S8x512 (.inl rfl) rfl (ix2 b k)).trans ?_
  show ∑ n : Fin 196, _ = _
  refine Finset.sum_congr rfl fun n _ => ?_
  have hl : reduces_S8x196x512_S8x512.lift (ix2 b k) n = ix3 b n k := funext fun c => Fin.ext (by
    match c with
    | ⟨0, _⟩ => rfl
    | ⟨1, _⟩ => rfl
    | ⟨2, _⟩ => rfl)
  rw [hl]
  refine (shapeCast_apply _ shapeCasts_S1568x512_S8x196x512 (ix3 b n k) (ix2 (tokenRow b n) k) ?_).trans ?_
  · rw [Shape.rowMajor_val_two, Shape.rowMajor_val_three]
    show (196 * b.val + n.val) * 512 + k.val = (b.val * 196 + n.val) * 512 + k.val
    omega
  · show max (acc (ix2 (tokenRow b n) k)) (Ideal.ofBits .f32 0x00000000#32) = _
    rw [Ideal.ofBits_zero_f32]

/-- The output block of the final step at (b, o): the two pooled values multiplied, contracted with Wp over the
    512 hidden features, plus bp[o] · 38416. -/
theorem output_apply (acc1 acc2 : Vec Ideal S1568x512 .f32) (wp : Vec Ideal S512x128 .f32) (bp : Vec Ideal S128 .f32)
    (b : Fin 8) (o : Fin 128) :
    k0_pay5 (F := Ideal) acc1 acc2 wp bp (ix2 b o)
      = (∑ k : Fin 512, ((∑ n : Fin 196, max (acc1 (ix2 (tokenRow b n) k)) 0) * (∑ n : Fin 196, max (acc2 (ix2 (tokenRow b n) k)) 0)) * wp (ix2 k o))
        + bp (ix1 o) * Ideal.ofBits .f32 0x47161000#32 := by
  unfold k0_pay5
  refine congrArg₂ (· + ·) ?_ ?_
  · refine (proj_product_apply _ _ b o).trans ?_
    refine Finset.sum_congr rfl fun k _ => congrArg (· * wp (ix2 k o)) ?_
    exact congrArg₂ (· * ·) (pooled_apply acc1 b k) (pooled_apply acc2 b k)
  · refine (broadcastTo_1b_ab_apply _ broadcasts_S1x128_S8x128 b o).trans ?_
    exact shapeCast_a_1a_apply _ shapeCasts_S128_S1x128 0 o

end Cert.KernelIdeal.Pooled

end
-- ==== Proof.Accumulated.lean ====
/-
  The two accumulators after the last contraction tile of a batch tile.

  Each accumulator is reset at the first of a batch tile's six grid points and has one tile's product added at each
  of the six. Read entry by entry over the extended reals, a reset followed by additions is zero plus the sum of the
  addends, so after the sixth point the accumulator holds the sum of the six tile products.
-/
import proofs.«177469_j90563680403989_2_alg».proof.Proof.Gen.KernelIdeal.Value
import proofs.«177469_j90563680403989_2_alg».proof.Proof.CasePieces
import proofs.«177469_j90563680403989_2_alg».proof.Proof.PayloadReads
import Idealize.ShloMosaic.Lib.Pipeline.Value
import Idealize.ShloMosaic.Lib.ValueIdx

noncomputable section

namespace Cert.KernelIdeal.Pooled

open Cert.KernelIdeal Cert.KernelIdeal.Gen Idealize.ShloMosaic Idealize.ShloMosaic.TcCoe Idealize.SL.Sem
open Idealize.ShloMosaic.ValueIdx

/-- One tile's product at entry (r, h): Σ_{j < 128} x[r, j] · w[j, h]. -/
def tileTerm (x : Vec Ideal S1568x128 .f32) (w : Vec Ideal S128x512 .f32) (r : Fin 1568) (h : Fin 512) : EReal :=
  ∑ j : Fin 128, x (ix2 r j) * w (ix2 j h)

variable (m : (ℓ : Loc nD τ sig) → Buf (Elt Ideal) ℓ)

/-! ## Accumulator 1 -/

/-- The product the step at grid point n adds to accumulator 1, entry (r, h): Σ_{j < 128} x1-block[r, j] · W1-block[j, h]
    (and 0 for a number past the grid, which is never used). -/
def tile1 (c : Dev nD) (n : ℕ) (r : Fin 1568) (h : Fin 512) : EReal :=
  if hn : n < cfg0.N then tileTerm (iblk m c 0 ⟨n, hn⟩) (iblk m c 2 ⟨n, hn⟩) r h else 0

/-- At the first contraction tile of a batch tile accumulator 1 is left at 0 plus that tile's product, whatever it held. -/
theorem acc1_first (c : Dev nD) (t : Fin cfg0.N) (h0 : t.val % 6 = 0) (acc : Vec Ideal S1568x512 .f32) (r : Fin 1568) (h : Fin 512) :
    Value.scAt0_0 m c t.val t.isLt acc (ix2 r h) = 0 + tile1 m c t.val r h := by
  have h1 : ¬t.val % 6 = 5 := by omega
  unfold Value.scAt0_0
  rw [dif_pos h0, dif_neg h1]
  refine (congrFun (first_tile_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 r h)).trans ?_
  refine (acc1_step_apply (iblk m c 0 t) (iblk m c 2 t) (k0_pay1 (F := Ideal)) r h).trans ?_
  rw [zero1_apply]
  unfold tile1
  rw [dif_pos t.isLt]
  rfl

/-- At every later contraction tile it is left at what it held plus that tile's product. -/
theorem acc1_later (c : Dev nD) (t : Fin cfg0.N) (h0 : ¬t.val % 6 = 0) (acc : Vec Ideal S1568x512 .f32) (r : Fin 1568) (h : Fin 512) :
    Value.scAt0_0 m c t.val t.isLt acc (ix2 r h) = acc (ix2 r h) + tile1 m c t.val r h := by
  unfold Value.scAt0_0
  rw [dif_neg h0]
  by_cases h1 : t.val % 6 = 5
  · rw [dif_pos h1]
    refine (congrFun (last_tile_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc (outsAt0 m c (t.val - 1) (Nat.lt_of_le_of_lt (Nat.sub_le _ _) t.isLt)).2.2) (ix2 r h)).trans ?_
    refine (acc1_step_apply (iblk m c 0 t) (iblk m c 2 t) acc r h).trans ?_
    unfold tile1
    rw [dif_pos t.isLt]
    rfl
  · rw [dif_neg h1]
    refine (congrFun (middle_tile_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc (outsAt0 m c (t.val - 1) (Nat.lt_of_le_of_lt (Nat.sub_le _ _) t.isLt)).2.2) (ix2 r h)).trans ?_
    refine (acc1_step_apply (iblk m c 0 t) (iblk m c 2 t) acc r h).trans ?_
    unfold tile1
    rw [dif_pos t.isLt]
    rfl

/-- So after contraction tile j of batch tile q accumulator 1 holds the sum of the products of tiles 0 … j. -/
theorem acc1_fold (c : Dev nD) (q j : ℕ) (hj : j ≤ 5) (hb : 6 * q + j < cfg0.N) (r : Fin 1568) (h : Fin 512) :
    Pipeline.accAt (fun n hn => Value.scAt0_0 m c n hn (VS0_0.read (Elt Ideal) VS0_0.junk)) (Value.scAt0_0 m c) (6 * q) j hb (ix2 r h)
      = 0 + ∑ s ∈ Finset.range (j + 1), tile1 m c (6 * q + s) r h :=
  Pipeline.accAt_add_apply (fun n hn => Value.scAt0_0 m c n hn (VS0_0.read (Elt Ideal) VS0_0.junk)) (Value.scAt0_0 m c)
    (fun _ => (0 : EReal)) (fun n (i : S1568x512.Idx) => tile1 m c n (i 0) (i 1)) (6 * q) 5
    (fun hn i => by
      obtain ⟨r', h', rfl⟩ : ∃ (r' : Fin 1568) (h' : Fin 512), i = ix2 r' h' := ⟨i 0, i 1, eq_ix2 i⟩
      exact acc1_first m c ⟨6 * q, hn⟩ (by show 6 * q % 6 = 0; omega) _ r' h')
    (fun n hn acc i hlo hhi => by
      obtain ⟨r', h', rfl⟩ : ∃ (r' : Fin 1568) (h' : Fin 512), i = ix2 r' h' := ⟨i 0, i 1, eq_ix2 i⟩
      exact acc1_later m c ⟨n, hn⟩ (by show ¬n % 6 = 0; omega) acc r' h')
    j hj hb (ix2 r h)

/-- After the last contraction tile of its batch tile (a grid point t with t % 6 = 5) accumulator 1 holds the sum of
    all six tiles' products. -/
theorem acc1_complete (c : Dev nD) (t : Fin cfg0.N) (h5 : t.val % 6 = 5) (r : Fin 1568) (h : Fin 512) :
    (outsAt0 m c t.val t.isLt).2.1 (ix2 r h) = ∑ s ∈ Finset.range 6, tile1 m c (6 * (t.val / 6) + s) r h := by
  refine (congrFun (Value.soutsAt0_0_eq m c t) (ix2 r h)).trans ?_
  refine (acc1_fold m c (t.val / 6) (t.val % 6) (by omega) _ r h).trans ?_
  rw [h5, zero_add]

/-! ## Accumulator 2 -/

/-- The product the step at grid point n adds to accumulator 2, entry (r, h): Σ_{j < 128} x2-block[r, j] · W2-block[j, h]
    (and 0 for a number past the grid, which is never used). -/
def tile2 (c : Dev nD) (n : ℕ) (r : Fin 1568) (h : Fin 512) : EReal :=
  if hn : n < cfg0.N then tileTerm (iblk m c 1 ⟨n, hn⟩) (iblk m c 3 ⟨n, hn⟩) r h else 0

/-- At the first contraction tile of a batch tile accumulator 2 is left at 0 plus that tile's product, whatever it held. -/
theorem acc2_first (c : Dev nD) (t : Fin cfg0.N) (h0 : t.val % 6 = 0) (acc : Vec Ideal S1568x512 .f32) (r : Fin 1568) (h : Fin 512) :
    Value.scAt0_1 m c t.val t.isLt acc (ix2 r h) = 0 + tile2 m c t.val r h := by
  have h1 : ¬t.val % 6 = 5 := by omega
  unfold Value.scAt0_1
  rw [dif_pos h0, dif_neg h1]
  refine (congrFun (first_tile_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 r h)).trans ?_
  refine (acc2_step_apply (iblk m c 1 t) (iblk m c 3 t) (k0_pay2 (F := Ideal)) r h).trans ?_
  rw [zero2_apply]
  unfold tile2
  rw [dif_pos t.isLt]
  rfl

/-- At every later contraction tile it is left at what it held plus that tile's product. -/
theorem acc2_later (c : Dev nD) (t : Fin cfg0.N) (h0 : ¬t.val % 6 = 0) (acc : Vec Ideal S1568x512 .f32) (r : Fin 1568) (h : Fin 512) :
    Value.scAt0_1 m c t.val t.isLt acc (ix2 r h) = acc (ix2 r h) + tile2 m c t.val r h := by
  unfold Value.scAt0_1
  rw [dif_neg h0]
  by_cases h1 : t.val % 6 = 5
  · rw [dif_pos h1]
    refine (congrFun (last_tile_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 acc) (ix2 r h)).trans ?_
    refine (acc2_step_apply (iblk m c 1 t) (iblk m c 3 t) acc r h).trans ?_
    unfold tile2
    rw [dif_pos t.isLt]
    rfl
  · rw [dif_neg h1]
    refine (congrFun (middle_tile_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 acc) (ix2 r h)).trans ?_
    refine (acc2_step_apply (iblk m c 1 t) (iblk m c 3 t) acc r h).trans ?_
    unfold tile2
    rw [dif_pos t.isLt]
    rfl

/-- So after contraction tile j of batch tile q accumulator 2 holds the sum of the products of tiles 0 … j. -/
theorem acc2_fold (c : Dev nD) (q j : ℕ) (hj : j ≤ 5) (hb : 6 * q + j < cfg0.N) (r : Fin 1568) (h : Fin 512) :
    Pipeline.accAt (fun n hn => Value.scAt0_1 m c n hn (VS0_1.read (Elt Ideal) VS0_1.junk)) (Value.scAt0_1 m c) (6 * q) j hb (ix2 r h)
      = 0 + ∑ s ∈ Finset.range (j + 1), tile2 m c (6 * q + s) r h :=
  Pipeline.accAt_add_apply (fun n hn => Value.scAt0_1 m c n hn (VS0_1.read (Elt Ideal) VS0_1.junk)) (Value.scAt0_1 m c)
    (fun _ => (0 : EReal)) (fun n (i : S1568x512.Idx) => tile2 m c n (i 0) (i 1)) (6 * q) 5
    (fun hn i => by
      obtain ⟨r', h', rfl⟩ : ∃ (r' : Fin 1568) (h' : Fin 512), i = ix2 r' h' := ⟨i 0, i 1, eq_ix2 i⟩
      exact acc2_first m c ⟨6 * q, hn⟩ (by show 6 * q % 6 = 0; omega) _ r' h')
    (fun n hn acc i hlo hhi => by
      obtain ⟨r', h', rfl⟩ : ∃ (r' : Fin 1568) (h' : Fin 512), i = ix2 r' h' := ⟨i 0, i 1, eq_ix2 i⟩
      exact acc2_later m c ⟨n, hn⟩ (by show ¬n % 6 = 0; omega) acc r' h')
    j hj hb (ix2 r h)

/-- After the last contraction tile of its batch tile (a grid point t with t % 6 = 5) accumulator 2 holds the sum of
    all six tiles' products. -/
theorem acc2_complete (c : Dev nD) (t : Fin cfg0.N) (h5 : t.val % 6 = 5) (r : Fin 1568) (h : Fin 512) :
    (outsAt0 m c t.val t.isLt).2.2 (ix2 r h) = ∑ s ∈ Finset.range 6, tile2 m c (6 * (t.val / 6) + s) r h := by
  refine (congrFun (Value.soutsAt0_1_eq m c t) (ix2 r h)).trans ?_
  refine (acc2_fold m c (t.val / 6) (t.val % 6) (by omega) _ r h).trans ?_
  rw [h5, zero_add]

end Cert.KernelIdeal.Pooled

end
-- ==== Proof.BlockReads.lean ====
/-
  What each input window holds at a grid point, in terms of the argument arrays.

  Grid point t (0 ≤ t < 12, the contraction tile innermost) is batch tile t / 6 and contraction tile t % 6. There:

    * the x1 window holds rows 1568·(t/6) … +1567 and columns 128·(t%6) … +127 of x1 flattened to [3136, 768];
      row 196·b + n of the block is token n of batch 8·(t/6) + b, because the flattening is row-major and
      3136 = 16 · 196;
    * the x2 window likewise;
    * the W1 and W2 windows hold rows 128·(t%6) … +127 (all 512 columns);
    * the Wp and bp windows hold the whole arrays.
-/
import proofs.«177469_j90563680403989_2_alg».proof.Proof.Gen.KernelIdeal.Frame.Runs
import proofs.«177469_j90563680403989_2_alg».proof.Proof.PooledSpec
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Pooled

open Cert.KernelIdeal Cert.KernelIdeal.Gen Idealize.ShloMosaic Idealize.ShloMosaic.TcCoe Idealize.SL.Sem
open Idealize.ShloMosaic.ValueIdx
open Cert.Pooled (tokenRow)

variable {F : FTy → Type} [FloatOps F]
variable (m : (ℓ : Loc nD τ sig) → Buf (Elt F) ℓ)

/-- The batch that local batch b of grid point t's tile is: 8·(t/6) + b. -/
abbrev batchAt (t : Fin cfg0.N) (b : Fin 8) : Fin 16 :=
  ⟨8 * (t.val / 6) + b.val, by have h1 := t.isLt; have h2 : cfg0.N = 12 := N_0; have := b.isLt; omega⟩

/-- The input feature that coordinate j of grid point t's contraction tile is: 128·(t%6) + j. -/
abbrev featureAt (t : Fin cfg0.N) (j : Fin 128) : Fin 768 :=
  ⟨128 * (t.val % 6) + j.val, by have := j.isLt; omega⟩

/-- Which block of each array a grid point stages, decided once over the twelve points. -/
theorem block_indices : ∀ t : Fin cfg0.N,
    win0_0.index t (0 : Fin 2) = t.val / 6 ∧ win0_0.index t (1 : Fin 2) = t.val % 6
    ∧ win0_1.index t (0 : Fin 2) = t.val / 6 ∧ win0_1.index t (1 : Fin 2) = t.val % 6
    ∧ win0_2.index t (0 : Fin 2) = t.val % 6 ∧ win0_2.index t (1 : Fin 2) = 0
    ∧ win0_3.index t (0 : Fin 2) = t.val % 6 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val / 6 ∧ win0_6.index t (1 : Fin 2) = 0 :=
  (by decide +kernel : ∀ t : Fin grid0.N, _)

/-- The region finds x1 flattened to [3136, 768]. -/
theorem flat_x1 (c : Dev nD) :
    (V m c main_v0 : S3136x768.Idx → Elt F .f32)
      = shapeCast S3136x768 (m ((c : Thread nD τ).loc main_arg0)) shapeCasts_S16x196x768_S3136x768 := by
  dsimp only [Gen.V, Gen.hostOps0]; after_results; rfl

/-- The region finds x2 flattened to [3136, 768]. -/
theorem flat_x2 (c : Dev nD) :
    (V m c main_v1 : S3136x768.Idx → Elt F .f32)
      = shapeCast S3136x768 (m ((c : Thread nD τ).loc main_arg1)) shapeCasts_S16x196x768_S3136x768 := by
  dsimp only [Gen.V, Gen.hostOps0]; after_results; rfl

/-- Row-major flattening: row R = 196·B + n of the flat array is token n of batch B. -/
theorem flat_apply {α : Type} (x : S16x196x768.Idx → α) (B : Fin 16) (n : Fin 196) (C : Fin 768) (R : Fin 3136)
    (hR : R.val = 196 * B.val + n.val) :
    shapeCast S3136x768 x shapeCasts_S16x196x768_S3136x768 (ix2 R C) = x (ix3 B n C) :=
  shapeCast_apply x shapeCasts_S16x196x768_S3136x768 (ix2 R C) (ix3 B n C) (by
    rw [Shape.rowMajor_val_two, Shape.rowMajor_val_three]
    show (B.val * 196 + n.val) * 768 + C.val = R.val * 768 + C.val
    rw [hR]; omega)

/-- The x1 block at grid point t: entry (196·b + n, j) is x1[8·(t/6) + b, n, 128·(t%6) + j]. -/
theorem x1_block (c : Dev nD) (t : Fin cfg0.N) (b : Fin 8) (n : Fin 196) (j : Fin 128) :
    (iblk m c 0 t : Vec F S1568x128 .f32) (ix2 (tokenRow b n) j)
      = m ((c : Thread nD τ).loc main_arg0) (ix3 (batchAt t b) n (featureAt t j)) := by
  obtain ⟨h0, h1, -⟩ := block_indices t
  have hN : cfg0.N = 12 := N_0
  have ht := t.isLt
  have hb := b.isLt
  have hn := n.isLt
  have e : (iblk m c 0 t : Vec F S1568x128 .f32) (ix2 (tokenRow b n) j)
      = V m c main_v0 (ix2 (⟨1568 * (t.val / 6) + (196 * b.val + n.val), by omega⟩ : Fin 3136) (featureAt t j)) := by
    unfold iblk
    rw [View.read_apply]
    show V m c main_v0 _ = V m c main_v0 _
    refine congrArg (V m c main_v0) (funext fun a => Fin.ext ?_)
    match a with
    | ⟨0, _⟩ => show win0_0.index t 0 * 1568 + 1 * (196 * b.val + n.val) = 1568 * (t.val / 6) + (196 * b.val + n.val); rw [h0]; omega
    | ⟨1, _⟩ => show win0_0.index t 1 * 128 + 1 * j.val = 128 * (t.val % 6) + j.val; rw [h1]; omega
  rw [e, flat_x1]
  exact flat_apply _ (batchAt t b) n (featureAt t j) _ (by show 1568 * (t.val / 6) + (196 * b.val + n.val) = 196 * (8 * (t.val / 6) + b.val) + n.val; omega)

/-- The x2 block at grid point t: entry (196·b + n, j) is x2[8·(t/6) + b, n, 128·(t%6) + j]. -/
theorem x2_block (c : Dev nD) (t : Fin cfg0.N) (b : Fin 8) (n : Fin 196) (j : Fin 128) :
    (iblk m c 1 t : Vec F S1568x128 .f32) (ix2 (tokenRow b n) j)
      = m ((c : Thread nD τ).loc main_arg1) (ix3 (batchAt t b) n (featureAt t j)) := by
  obtain ⟨-, -, h0, h1, -⟩ := block_indices t
  have hN : cfg0.N = 12 := N_0
  have ht := t.isLt
  have hb := b.isLt
  have hn := n.isLt
  have e : (iblk m c 1 t : Vec F S1568x128 .f32) (ix2 (tokenRow b n) j)
      = V m c main_v1 (ix2 (⟨1568 * (t.val / 6) + (196 * b.val + n.val), by omega⟩ : Fin 3136) (featureAt t j)) := by
    unfold iblk
    rw [View.read_apply]
    show V m c main_v1 _ = V m c main_v1 _
    refine congrArg (V m c main_v1) (funext fun a => Fin.ext ?_)
    match a with
    | ⟨0, _⟩ => show win0_1.index t 0 * 1568 + 1 * (196 * b.val + n.val) = 1568 * (t.val / 6) + (196 * b.val + n.val); rw [h0]; omega
    | ⟨1, _⟩ => show win0_1.index t 1 * 128 + 1 * j.val = 128 * (t.val % 6) + j.val; rw [h1]; omega
  rw [e, flat_x2]
  exact flat_apply _ (batchAt t b) n (featureAt t j) _ (by show 1568 * (t.val / 6) + (196 * b.val + n.val) = 196 * (8 * (t.val / 6) + b.val) + n.val; omega)

/-- The W1 block at grid point t: entry (j, h) is W1[128·(t%6) + j, h]. -/
theorem w1_block (c : Dev nD) (t : Fin cfg0.N) (j : Fin 128) (h : Fin 512) :
    (iblk m c 2 t : Vec F S128x512 .f32) (ix2 j h) = m ((c : Thread nD τ).loc main_arg2) (ix2 (featureAt t j) h) := by
  obtain ⟨-, -, -, -, h0, h1, -⟩ := block_indices t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 128 + 1 * j.val = 128 * (t.val % 6) + j.val; rw [h0]; omega
  | ⟨1, _⟩ => show win0_2.index t 1 * 512 + 1 * h.val = h.val; rw [h1]; omega

/-- The W2 block at grid point t: entry (j, h) is W2[128·(t%6) + j, h]. -/
theorem w2_block (c : Dev nD) (t : Fin cfg0.N) (j : Fin 128) (h : Fin 512) :
    (iblk m c 3 t : Vec F S128x512 .f32) (ix2 j h) = m ((c : Thread nD τ).loc main_arg3) (ix2 (featureAt t j) h) := by
  obtain ⟨-, -, -, -, -, -, h0, h1, -⟩ := block_indices t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 128 + 1 * j.val = 128 * (t.val % 6) + j.val; rw [h0]; omega
  | ⟨1, _⟩ => show win0_3.index t 1 * 512 + 1 * h.val = h.val; rw [h1]; omega

/-- The Wp window holds the whole of Wp at every grid point. -/
theorem wp_block (c : Dev nD) (t : Fin cfg0.N) (k : Fin 512) (o : Fin 128) :
    (iblk m c 4 t : Vec F S512x128 .f32) (ix2 k o) = m ((c : Thread nD τ).loc main_arg4) (ix2 k o) := by
  obtain ⟨-, -, -, -, -, -, -, -, h0, h1, -⟩ := block_indices t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 512 + 1 * k.val = k.val; rw [h0]; omega
  | ⟨1, _⟩ => show win0_4.index t 1 * 128 + 1 * o.val = o.val; rw [h1]; omega

/-- The bp window holds the whole of bp at every grid point. -/
theorem bp_block (c : Dev nD) (t : Fin cfg0.N) (o : Fin 128) :
    (iblk m c 5 t : Vec F S128 .f32) (ix1 o) = m ((c : Thread nD τ).loc main_arg5) (ix1 o) := by
  obtain ⟨-, -, -, -, -, -, -, -, -, -, h0, -⟩ := block_indices t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t 0 * 128 + 1 * o.val = o.val; rw [h0]; omega

end Cert.KernelIdeal.Pooled

end
-- ==== Proof.KernelValue.lean ====
/-
  The kernel's result array, as one function of its arguments.

  After the last contraction tile of a batch tile both accumulators hold full contractions over the 768 input
  features (the tiling law), so the block the kernel stores there — computed from the accumulators — is the block of
  the common result function for the eight batches of that tile. Those two write-backs (grid points 5 and 11) cover
  the [16, 128] result array, which therefore ends holding the result function everywhere.
-/
import proofs.«177469_j90563680403989_2_alg».proof.Proof.Accumulated
import proofs.«177469_j90563680403989_2_alg».proof.Proof.BlockReads
import proofs.«177469_j90563680403989_2_alg».proof.Proof.PooledSpec

noncomputable section

namespace Cert.KernelIdeal.Pooled

open Cert.KernelIdeal Cert.KernelIdeal.Gen Idealize.ShloMosaic Idealize.ShloMosaic.TcCoe Idealize.SL.Sem
open Idealize.ShloMosaic.ValueIdx
open Idealize.ShloMosaic.Pipeline (Dat)
open Cert.Pooled (tokenRow sum_by_tiles resultAt pooledRelu)

variable (m : (ℓ : Loc nD τ sig) → Buf (Elt Ideal) ℓ) (ρ : Dev nD → PrngReg)

/-- The six argument arrays as launched, each as a function from its index to an extended real. -/
abbrev argX1 (c : Dev nD) : (⟨3, ![16, 196, 768]⟩ : Shape).Idx → EReal := m ((c : Thread nD τ).loc main_arg0)
abbrev argX2 (c : Dev nD) : (⟨3, ![16, 196, 768]⟩ : Shape).Idx → EReal := m ((c : Thread nD τ).loc main_arg1)
abbrev argW1 (c : Dev nD) : (⟨2, ![768, 512]⟩ : Shape).Idx → EReal := m ((c : Thread nD τ).loc main_arg2)
abbrev argW2 (c : Dev nD) : (⟨2, ![768, 512]⟩ : Shape).Idx → EReal := m ((c : Thread nD τ).loc main_arg3)
abbrev argWp (c : Dev nD) : (⟨2, ![512, 128]⟩ : Shape).Idx → EReal := m ((c : Thread nD τ).loc main_arg4)
abbrev argBp (c : Dev nD) : (⟨1, ![128]⟩ : Shape).Idx → EReal := m ((c : Thread nD τ).loc main_arg5)

/-- After the last contraction tile of batch tile t / 6, accumulator 1 at (196·b + n, h) is the FULL contraction
    Σ_{c < 768} x1[8·(t/6) + b, n, c] · W1[c, h]: the six tiles' products, each a sum over its 128 features, are by
    the tiling law the sum over all 768. -/
theorem acc1_full (c : Dev nD) (t : Fin cfg0.N) (h5 : t.val % 6 = 5) (b : Fin 8) (n : Fin 196) (h : Fin 512) :
    (outsAt0 m c t.val t.isLt).2.1 (ix2 (tokenRow b n) h)
      = ∑ f : Fin 768, argX1 m c (ix3 (batchAt t b) n f) * argW1 m c (ix2 f h) := by
  have ht := t.isLt
  have hN : cfg0.N = 12 := N_0
  refine (acc1_complete m c t h5 (tokenRow b n) h).trans ?_
  rw [Finset.sum_range, sum_by_tiles]
  refine Finset.sum_congr rfl fun s _ => ?_
  have hs := s.isLt
  have hlt : 6 * (t.val / 6) + s.val < cfg0.N := by omega
  unfold tile1
  rw [dif_pos hlt]
  unfold tileTerm
  refine Finset.sum_congr rfl fun j _ => ?_
  have eb : batchAt (⟨6 * (t.val / 6) + s.val, hlt⟩ : Fin cfg0.N) b = batchAt t b :=
    Fin.ext (by show 8 * ((6 * (t.val / 6) + s.val) / 6) + b.val = 8 * (t.val / 6) + b.val; omega)
  have ef : featureAt (⟨6 * (t.val / 6) + s.val, hlt⟩ : Fin cfg0.N) j
      = (⟨128 * s.val + j.val, by have := j.isLt; omega⟩ : Fin 768) :=
    Fin.ext (by show 128 * ((6 * (t.val / 6) + s.val) % 6) + j.val = 128 * s.val + j.val; omega)
  refine (congrArg₂ (fun (u v : EReal) => u * v) (x1_block m c ⟨6 * (t.val / 6) + s.val, hlt⟩ b n j) (w1_block m c ⟨6 * (t.val / 6) + s.val, hlt⟩ j h)).trans ?_
  rw [eb, ef]

/-- After the last contraction tile of batch tile t / 6, accumulator 2 at (196·b + n, h) is the FULL contraction
    Σ_{c < 768} x2[8·(t/6) + b, n, c] · W2[c, h]: the six tiles' products, each a sum over its 128 features, are by
    the tiling law the sum over all 768. -/
theorem acc2_full (c : Dev nD) (t : Fin cfg0.N) (h5 : t.val % 6 = 5) (b : Fin 8) (n : Fin 196) (h : Fin 512) :
    (outsAt0 m c t.val t.isLt).2.2 (ix2 (tokenRow b n) h)
      = ∑ f : Fin 768, argX2 m c (ix3 (batchAt t b) n f) * argW2 m c (ix2 f h) := by
  have ht := t.isLt
  have hN : cfg0.N = 12 := N_0
  refine (acc2_complete m c t h5 (tokenRow b n) h).trans ?_
  rw [Finset.sum_range, sum_by_tiles]
  refine Finset.sum_congr rfl fun s _ => ?_
  have hs := s.isLt
  have hlt : 6 * (t.val / 6) + s.val < cfg0.N := by omega
  unfold tile2
  rw [dif_pos hlt]
  unfold tileTerm
  refine Finset.sum_congr rfl fun j _ => ?_
  have eb : batchAt (⟨6 * (t.val / 6) + s.val, hlt⟩ : Fin cfg0.N) b = batchAt t b :=
    Fin.ext (by show 8 * ((6 * (t.val / 6) + s.val) / 6) + b.val = 8 * (t.val / 6) + b.val; omega)
  have ef : featureAt (⟨6 * (t.val / 6) + s.val, hlt⟩ : Fin cfg0.N) j
      = (⟨128 * s.val + j.val, by have := j.isLt; omega⟩ : Fin 768) :=
    Fin.ext (by show 128 * ((6 * (t.val / 6) + s.val) % 6) + j.val = 128 * s.val + j.val; omega)
  refine (congrArg₂ (fun (u v : EReal) => u * v) (x2_block m c ⟨6 * (t.val / 6) + s.val, hlt⟩ b n j) (w2_block m c ⟨6 * (t.val / 6) + s.val, hlt⟩ j h)).trans ?_
  rw [eb, ef]

/-! ## The output block at a batch tile's last step -/

/-- At a batch tile's last grid point the stored block, at (b, o), is the common result at batch 8·(t/6) + b and
    output feature o. -/
theorem out_at_last (c : Dev nD) (t : Fin cfg0.N) (h5 : t.val % 6 = 5) (b : Fin 8) (o : Fin 128) :
    (outsAt0 m c t.val t.isLt).1 (ix2 b o) = resultAt (argX1 m c) (argX2 m c) (argW1 m c) (argW2 m c) (argWp m c) (argBp m c) (batchAt t b) o := by
  have h0 : ¬t.val % 6 = 0 := by omega
  have e := outsAt0_C m c t h0 h5
  have e1 := congrArg (fun p => p.1) e
  have e21 := congrArg (fun p => p.2.1) e
  have e22 := congrArg (fun p => p.2.2) e
  dsimp only at e1 e21 e22
  have a1 : k0_pay3 (iblk m c 0 t) (iblk m c 2 t) (outsAt0 m c (t.val - 1) (Nat.lt_of_le_of_lt (Nat.sub_le _ _) t.isLt)).2.1 = (outsAt0 m c t.val t.isLt).2.1 :=
    (e21.trans (last_tile_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)).symm
  have a2 : k0_pay4 (iblk m c 1 t) (iblk m c 3 t) (outsAt0 m c (t.val - 1) (Nat.lt_of_le_of_lt (Nat.sub_le _ _) t.isLt)).2.2 = (outsAt0 m c t.val t.isLt).2.2 :=
    (e22.trans (last_tile_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)).symm
  refine (congrFun (e1.trans (last_tile_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)) (ix2 b o)).trans ?_
  rw [a1, a2]
  refine (output_apply _ _ (iblk m c 4 t) (iblk m c 5 t) b o).trans ?_
  unfold resultAt pooledRelu
  refine congrArg₂ (· + ·) (Finset.sum_congr rfl fun k _ => ?_) ?_
  · refine congrArg₂ (· * ·) (congrArg₂ (· * ·) (Finset.sum_congr rfl fun n _ => ?_) (Finset.sum_congr rfl fun n _ => ?_)) (wp_block m c t k o)
    · rw [acc1_full m c t h5 b n k]
    · rw [acc2_full m c t h5 b n k]
  · exact congrArg (· * _) (bp_block m c t o)

/-! ## From the blocks to the array -/

/-- What the kernel's result array ends holding. -/
abbrev resultArray (c : Dev nD) : Buf (Elt Ideal) ((c : Thread nD τ).loc main_v2) :=
  Cert.Pooled.result (argX1 m c) (argX2 m c) (argW1 m c) (argW2 m c) (argWp m c) (argBp m c)

/-- What a batch tile's last grid point writes back is that tile's block of the result array. -/
theorem flushed_eq (c : Dev nD) (t : Fin cfg0.N) (hf : (cfg0.win 6).flush t = true) :
    (dats m 0 c).flushed 6 t = ((cfg0.win 6).blk t).view.read (Elt Ideal) (resultArray m c) := by
  have h5 : t.val % 6 = 5 := (flush0_6 t).mp hf
  obtain ⟨-, -, -, -, -, -, -, -, -, -, -, i0, i1⟩ := block_indices t
  have key : (outsAt0 m c t.val t.isLt).1 = fun y : S8x128.Idx => resultAt (argX1 m c) (argX2 m c) (argW1 m c) (argW2 m c) (argWp m c) (argBp m c) (batchAt t (y 0)) (y 1) := by
    funext y
    obtain ⟨b, o, rfl⟩ : ∃ (b : Fin 8) (o : Fin 128), y = ix2 b o := ⟨y 0, y 1, eq_ix2 y⟩
    exact out_at_last m c t h5 b o
  rw [Value.flushed6, key]
  funext j
  show resultAt (argX1 m c) (argX2 m c) (argW1 m c) (argW2 m c) (argWp m c) (argBp m c) (batchAt t (j 0)) (j 1)
    = resultAt (argX1 m c) (argX2 m c) (argW1 m c) (argW2 m c) (argWp m c) (argBp m c) ((((cfg0.win 6).blk t).view.emb j) 0) ((((cfg0.win 6).blk t).view.emb j) 1)
  congr 1
  · apply Fin.ext
    show 8 * (t.val / 6) + (j 0).val = win0_6.index t 0 * 8 + 1 * (j 0).val
    rw [i0]; omega
  · apply Fin.ext
    show (j 1).val = win0_6.index t 1 * 128 + 1 * (j 1).val
    rw [i1]; omega

/-- An index of the result array is in grid point t's block iff each coordinate is in the block's range. -/
theorem mem_blk (t : Fin cfg0.N) (i : S16x128.Idx) :
    i ∈ ((cfg0.win 6).blk t).view.set
      ↔ ∀ a : Fin 2, win0_6.index t a * S8x128.size a ≤ (i a).val ∧ (i a).val < win0_6.index t a * S8x128.size a + S8x128.size a := by
  show i ∈ ((View.whole main_v2).slice (win0_6.rect t)).set ↔ _
  rw [View.set_slice_whole, Rect.mem_set_unit]
  exact Iff.rfl

/-- Batch i₀ lies in the block written back at the last grid point of batch tile i₀ / 8. -/
theorem cover (i : S16x128.Idx) :
    ∃ t : Fin cfg0.N, (cfg0.win 6).flush t = true ∧ i ∈ ((cfg0.win 6).blk t).view.set := by
  have hi0 : (i 0).val < 16 := (i 0).isLt
  have hi1 : (i 1).val < 128 := (i 1).isLt
  have hN : cfg0.N = 12 := N_0
  have hlt : 6 * ((i 0).val / 8) + 5 < cfg0.N := by omega
  obtain ⟨-, -, -, -, -, -, -, -, -, -, -, i0, i1⟩ := block_indices ⟨6 * ((i 0).val / 8) + 5, hlt⟩
  refine ⟨⟨6 * ((i 0).val / 8) + 5, hlt⟩, (flush0_6 _).mpr (by show (6 * ((i 0).val / 8) + 5) % 6 = 5; omega), ?_⟩
  rw [mem_blk]
  intro a
  match a with
  | ⟨0, _⟩ =>
    show win0_6.index ⟨6 * ((i 0).val / 8) + 5, hlt⟩ 0 * 8 ≤ (i 0).val ∧ (i 0).val < win0_6.index ⟨6 * ((i 0).val / 8) + 5, hlt⟩ 0 * 8 + 8
    rw [i0]
    show (6 * ((i 0).val / 8) + 5) / 6 * 8 ≤ (i 0).val ∧ (i 0).val < (6 * ((i 0).val / 8) + 5) / 6 * 8 + 8
    omega
  | ⟨1, _⟩ =>
    show win0_6.index ⟨6 * ((i 0).val / 8) + 5, hlt⟩ 1 * 128 ≤ (i 1).val ∧ (i 1).val < win0_6.index ⟨6 * ((i 0).val / 8) + 5, hlt⟩ 1 * 128 + 128
    rw [i1]
    omega

/-- The result array after the run. -/
theorem final (c : Dev nD) : (dats m 0 c).arrAt 6 cfg0.N = resultArray m c :=
  (dats m 0 c).arrAt_eq_of_cover 6 (resultArray m c) (flushed_eq m c) cover

/-- Every weakly fair execution of the kernel's program ends, without a fault, with the result array holding the
    common result function of the arguments and the arguments unchanged. -/
theorem run : θ_run defs (onTc (τ := τ) (main (F := Ideal))) ⟨m, fun _ => 0, ρ⟩ fun r => ∀ c : Dev nD,
      r.2.mem ((c : Thread nD τ).loc main_v2) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Pooled

end
-- ==== Proof.ReferenceValue.lean ====
/-
  The reference computes the common result function.

  Its program is a straight line: contract x1 with W1 over all 768 features, rectify, sum over the 196 tokens; the
  same with x2 and W2; multiply the two pooled arrays; contract with Wp over the 512 hidden features; add the bias
  scaled by 38416. Read entry by entry over the extended reals (a contraction is a plain sum of products, a
  reduction from the zero word is a plain sum, the rectifier is max with 0) that is literally the result function.
-/
import proofs.«177469_j90563680403989_2_alg».proof.Proof.Gen.ReferenceIdeal.Read
import proofs.«177469_j90563680403989_2_alg».proof.Proof.PooledSpec
import Idealize.ShloMosaic.Lib.ValueIdx
import Idealize.ShloMosaic.PureOps.Ideal.Laws

noncomputable section

namespace Cert.ReferenceIdeal.Pooled

open Cert.ReferenceIdeal Cert.ReferenceIdeal.Gen Cert.ReferenceIdeal.Read Idealize.ShloMosaic Idealize.ShloMosaic.ValueIdx
open Cert.Pooled (resultAt pooledRelu)

/-- The first pooled projection of the reference at (b, k) is Σ_n relu(Σ_c x1[b, n, c] · W1[c, k]). -/
theorem pooled1_eq (x : (⟨S16x196x768, .f32⟩ : BufTy).Contents (Elt Ideal)) (W : (⟨S768x512, .f32⟩ : BufTy).Contents (Elt Ideal))
    (b : Fin 16) (k : Fin 512) : val_main_v4 (F := Ideal) x W (ix2 b k) = pooledRelu x W b k := by
  rw [val_main_v4_apply, val_main_cst_apply]
  unfold pooledRelu
  simp only [Ideal.ofBits_def, Ideal.ofBits_zero_f32, zero_add]
  refine Finset.sum_congr rfl fun n _ => ?_
  have e : idx_main_v4 (ix2 b k) n = ix3 b n k := funext fun a => Fin.ext (by
    match a with
    | ⟨0, _⟩ => rfl
    | ⟨1, _⟩ => rfl
    | ⟨2, _⟩ => rfl)
  rw [e, val_main_v1_apply, val_main_v0_apply, val_main_call0_v0_apply, val_main_call0_cst_apply]
  simp only [Ideal.maximumf_def, Ideal.ofBits_def, Ideal.ofBits_zero_f32]
  refine congrArg (max · 0) (Finset.sum_congr rfl fun f _ => ?_)
  have el : lidx_main_v0 (ix3 b n k) f = ix3 b n f := funext fun a => Fin.ext (by
    match a with
    | ⟨0, _⟩ => rfl
    | ⟨1, _⟩ => rfl
    | ⟨2, _⟩ => rfl)
  have er : ridx_main_v0 (ix3 b n k) f = ix2 f k := funext fun a => Fin.ext (by
    match a with
    | ⟨0, _⟩ => rfl
    | ⟨1, _⟩ => rfl)
  rw [el, er]

/-- The second pooled projection likewise, with x2 and W2. -/
theorem pooled2_eq (x : (⟨S16x196x768, .f32⟩ : BufTy).Contents (Elt Ideal)) (W : (⟨S768x512, .f32⟩ : BufTy).Contents (Elt Ideal))
    (b : Fin 16) (k : Fin 512) : val_main_v5 (F := Ideal) x W (ix2 b k) = pooledRelu x W b k := by
  rw [val_main_v5_apply, val_main_cst_0_apply]
  unfold pooledRelu
  simp only [Ideal.ofBits_def, Ideal.ofBits_zero_f32, zero_add]
  refine Finset.sum_congr rfl fun n _ => ?_
  have e : idx_main_v5 (ix2 b k) n = ix3 b n k := funext fun a => Fin.ext (by
    match a with
    | ⟨0, _⟩ => rfl
    | ⟨1, _⟩ => rfl
    | ⟨2, _⟩ => rfl)
  rw [e, val_main_v3_apply, val_main_v2_apply, val_main_call1_v0_apply, val_main_call1_cst_apply]
  simp only [Ideal.maximumf_def, Ideal.ofBits_def, Ideal.ofBits_zero_f32]
  refine congrArg (max · 0) (Finset.sum_congr rfl fun f _ => ?_)
  have el : lidx_main_v2 (ix3 b n k) f = ix3 b n f := funext fun a => Fin.ext (by
    match a with
    | ⟨0, _⟩ => rfl
    | ⟨1, _⟩ => rfl
    | ⟨2, _⟩ => rfl)
  have er : ridx_main_v2 (ix3 b n k) f = ix2 f k := funext fun a => Fin.ext (by
    match a with
    | ⟨0, _⟩ => rfl
    | ⟨1, _⟩ => rfl)
  rw [el, er]

/-- The reference's result stage is the common result function of its arguments. -/
theorem reference_eq (x0 x1 : (⟨S16x196x768, .f32⟩ : BufTy).Contents (Elt Ideal)) (x2 x3 : (⟨S768x512, .f32⟩ : BufTy).Contents (Elt Ideal))
    (x4 : (⟨S512x128, .f32⟩ : BufTy).Contents (Elt Ideal)) (x5 : (⟨S128, .f32⟩ : BufTy).Contents (Elt Ideal)) :
    val_main_v12 (F := Ideal) x0 x1 x2 x3 x4 x5 = Cert.Pooled.result x0 x1 x2 x3 x4 x5 := by
  funext i
  obtain ⟨b, o, rfl⟩ : ∃ (b : Fin 16) (o : Fin 128), i = ix2 b o := ⟨i 0, i 1, eq_ix2 i⟩
  show _ = resultAt x0 x1 x2 x3 x4 x5 b o
  rw [val_main_v12_apply, val_main_v7_apply, val_main_v11_apply, val_main_v10_apply, val_main_v9_apply, val_main_v8_apply,
    val_main_cst_1_apply]
  unfold resultAt
  simp only [Ideal.addf_def, Ideal.mulf_def, Ideal.ofBits_def]
  refine congrArg₂ (· + ·) (Finset.sum_congr rfl fun k _ => ?_) ?_
  · have el : lidx_main_v7 (ix2 b o) k = ix2 b k := funext fun a => Fin.ext (by
      match a with
      | ⟨0, _⟩ => rfl
      | ⟨1, _⟩ => rfl)
    have er : ridx_main_v7 (ix2 b o) k = ix2 k o := funext fun a => Fin.ext (by
      match a with
      | ⟨0, _⟩ => rfl
      | ⟨1, _⟩ => rfl)
    rw [el, er, val_main_v6_apply, pooled1_eq, pooled2_eq]
    simp only [Ideal.mulf_def]
  · have e : idx_main_v10 (idx_main_v11 (ix2 b o)) = ix1 o := funext fun a => Fin.ext (by
      match a with
      | ⟨0, _⟩ => rfl)
    rw [e]

end Cert.ReferenceIdeal.Pooled

end
-- ==== Proof.lean ====
/-
  The kernel and its reference compute the same array over the extended reals.

  Both take x1, x2 : [16, 196, 768], W1, W2 : [768, 512], Wp : [512, 128], bp : [128] and return [16, 128]:

      out[b, o] = Σ_h ( Σ_n relu(Σ_c x1[b, n, c] · W1[c, h]) ) · ( Σ_m relu(Σ_c x2[b, m, c] · W2[c, h]) ) · Wp[h, o]
                  + bp[o] · 38416.

  The reference does this in one straight line. The kernel works on a grid of 2 batch tiles × 6 contraction tiles:
  for each batch tile of 8 batches it accumulates the two projections over the six tiles of 128 input features in
  two [1568, 512] buffers (reset at the first tile), and at the sixth tile rectifies, pools over the 196 tokens,
  multiplies, projects with Wp and adds the scaled bias, writing the tile's [8, 128] block of the result.

  The two agree because a sum over 768 features is the sum over six tiles of the sums over each tile's 128 features
  — addition of extended reals is commutative and associative, so no finiteness of the inputs is used —, because a
  change of float format and a zero accumulator are invisible over the extended reals, and because the flattening
  of [16, 196, ·] to [3136, ·] is row-major, so row 196·b + n of a batch tile's block is token n of its batch b.
  The scale 38416 = 196² is the same float word in both programs and its value is never needed.

  The three frame claims are the generated runs; the idealization rewrote nothing, so its claim is trivial.
-/
import proofs.«177469_j90563680403989_2_alg».proof.Defs
import proofs.«177469_j90563680403989_2_alg».proof.Proof.Gen.Kernel
import proofs.«177469_j90563680403989_2_alg».proof.Proof.Gen.Kernel.Frame
import proofs.«177469_j90563680403989_2_alg».proof.Proof.Gen.KernelIdeal
import proofs.«177469_j90563680403989_2_alg».proof.Proof.Gen.KernelIdeal.Frame
import proofs.«177469_j90563680403989_2_alg».proof.Proof.Gen.KernelIdeal.Value
import proofs.«177469_j90563680403989_2_alg».proof.Proof.Gen.ReferenceIdeal
import proofs.«177469_j90563680403989_2_alg».proof.Proof.Gen.ReferenceIdeal.Run
import proofs.«177469_j90563680403989_2_alg».proof.Proof.Gen.ReferenceIdeal.Read
import proofs.«177469_j90563680403989_2_alg».proof.Proof.Gen.Pre_finite_inputs
import proofs.«177469_j90563680403989_2_alg».proof.Proof.KernelValue
import proofs.«177469_j90563680403989_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the six arguments, the kernel's result array and the reference's both end at the
    common result function of those arguments. -/
theorem algebraic : Cert.algebraic_KernelIdeal_ReferenceIdeal := by
  intro m ρ m' ρ' _ hagree
  refine ⟨fun c => Cert.KernelIdeal.Pooled.resultArray m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Pooled.resultArray m c
  obtain ⟨e0, e1, e2, e3, e4, e5⟩ := hagree c
  rw [Cert.ReferenceIdeal.Read.val_main_v12_eq, Cert.ReferenceIdeal.Pooled.reference_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
